-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x128 : Shape := ⟨2, ![800000, 128]⟩
abbrev S800000 : Shape := ⟨1, ![800000]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : FVec F S800000x128 .f32) (main_arg2 : IVec S800000 32) (main_arg3 : IVec S800000 32) (main_arg4 : FVec F S64x128 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S800000x128 : Shape := ⟨2, ![800000, 128]⟩
abbrev S800000 : Shape := ⟨1, ![800000]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S128x64 : Shape := ⟨2, ![128, 64]⟩
abbrev S1x64 : Shape := ⟨2, ![1, 64]⟩
abbrev S8000x128 : Shape := ⟨2, ![8000, 128]⟩
abbrev S8000x64 : Shape := ⟨2, ![8000, 64]⟩

abbrev nBuf : Space → Nat
  | .hbm => 23
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S128x64, .f32⟩
  | .hbm, ⟨16, _⟩ => ⟨S128x64, .bf16⟩
  | .hbm, ⟨17, _⟩ => ⟨S1x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S128x64, .bf16⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S64x128_S128x64_1_0 : S64x128.Transposes [1, 0] S128x64
  bitsLt_bf16_f32 : FTy.bits .bf16 < FTy.bits .f32
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x128 : Shape := ⟨2, ![800000, 128]⟩
abbrev S800000 : Shape := ⟨1, ![800000]⟩
abbrev S64x128 : Shape := ⟨2, ![64, 128]⟩
abbrev S64 : Shape := ⟨1, ![64]⟩
abbrev S800000x64 : Shape := ⟨2, ![800000, 64]⟩
abbrev S1x64 : Shape := ⟨2, ![1, 64]⟩
abbrev S_ : Shape := ⟨0, ![]⟩
abbrev S800000x1 : Shape := ⟨2, ![800000, 1]⟩

abbrev nBuf : Space → Nat
  | .hbm => 24
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S64x128, .f32⟩
  | .hbm, ⟨5, _⟩ => ⟨S64, .f32⟩
  | .hbm, ⟨6, _⟩ => ⟨S800000x64, .f32⟩
  | .hbm, ⟨7, _⟩ => ⟨S1x64, .f32⟩
  | .hbm, ⟨8, _⟩ => ⟨S800000x64, .f32⟩
  | .hbm, ⟨9, _⟩ => ⟨S800000x64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  dot_S800000x128_S64x128_S800000x64_1_1_0_0_n_n_wf : DotDims.WF S800000x128 S64x128 S800000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S800000x128_S64x128_S800000x64_1_1_0_0_n_n : DotDims S800000x128 S64x128 S800000x64 where
  lhsContracting := [1]
  rhsContracting := [1]
  lhsNonContracting := [0]
  rhsNonContracting := [0]
  lhsBatch := []
  rhsBatch := []
  wf := dot_S800000x128_S64x128_S800000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Tile.lean ====
/-
  What the kernel body computes on one tile of 8000 edges, read at an edge `p` of the tile and a channel `q`.

  The body multiplies the tile of basis values `[8000, 128]` by the transposed weights `[128, 64]` into a zero
  accumulator, adds the bias row to every row, and multiplies by the tile of gathered features. On the extended reals a
  change of float format is the identity and the matrix product into zero is the plain sum over the 128 basis values, so
  the entry is
      (Σ_k eb p k · wt k q + b2 0 q) · xg p q.
-/
import proofs.«133160_j5042291605794_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The product's operand indices, coordinate by coordinate

The product contracts axis 1 of the left operand with axis 0 of the right one; the result's row is the left operand's
row and its column the right operand's column. -/

theorem lhs_row (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl

theorem lhs_contracted (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q

theorem rhs_contracted (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q

theorem rhs_col (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The tile product into a zero accumulator, at row `p` and column `q`, is the sum over the 128 contracted
    positions of the left operand's row times the right operand's column. -/
theorem product_apply (l : FVec Ideal S8000x128 .bf16) (r : FVec Ideal S128x64 .bf16) (p : Fin 8000) (q : Fin 64) :
    matmul dot_S8000x128_S128x64_S8000x64_1_0_0_1_n_n none l r (constant (F := Ideal) S8000x64 .f32 0x00000000#32) (ix2 p q)
      = ∑ k : Fin 128, l (ix2 p k) * r (ix2 k q) := by
  simp only [matmul]
  rw [Ideal.matmul_constant_zero_apply, ← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 p q) ((contrEquiv1 dot_S8000x128_S128x64_S8000x64_1_0_0_1_n_n 128 rfl rfl).symm k) = ix2 p k := funext fun a => Fin.ext (by
    match a with
    | ⟨0, _⟩ => exact lhs_row _ _
    | ⟨1, _⟩ => exact (lhs_contracted _ _).trans hk)
  have er : dot_S8000x128_S128x64_S8000x64_1_0_0_1_n_n.rhsIdx (ix2 p q) ((contrEquiv1 dot_S8000x128_S128x64_S8000x64_1_0_0_1_n_n 128 rfl rfl).symm k) = ix2 k q := funext fun a => Fin.ext (by
    match a with
    | ⟨0, _⟩ => exact (rhs_contracted _ _).trans hk
    | ⟨1, _⟩ => exact rhs_col _ _)
  rw [el, er]

/-- The body's stored value at edge `p` of the tile and channel `q`: the filter (the sum over the basis values plus
    the bias row's entry) times the gathered feature. -/
theorem payload_apply (eb : Vec Ideal S8000x128 .f32) (wt : Vec Ideal S128x64 .bf16) (b2 : Vec Ideal S1x64 .f32)
    (xg : Vec Ideal S8000x64 .f32) (p : Fin 8000) (q : Fin 64) :
    k0_pay1 (F := Ideal) eb wt b2 xg (ix2 p q)
      = ((∑ k : Fin 128, eb (ix2 p k) * wt (ix2 k q)) + b2 (ix2 (0 : Fin 1) q)) * xg (ix2 p q) := by
  unfold k0_pay1
  simp only [shapeCast_self]
  rw [mulf_apply, addf_apply, product_apply, broadcastTo_1b_ab_apply]
  simp only [truncf_apply]

end Cert.KernelIdeal.Tile

end
-- ==== Proof.Messages.lean ====
/-
  The per-edge messages of a radial-filter graph layer, as ONE array of the inputs, index by index.

  Edge `e` carries in channel `d` the product of two numbers: the gathered feature `xg e d` of its source node, and
  the radial filter of the edge, a linear map of the edge's 128 basis values with a bias,
      filt e d = Σ_r eb e r · W d r + b d.
  Two spellings of that array are compared. The first holds the weights transposed, `wt r d`, the bias as a one-row
  matrix `b2 0 d`, and multiplies the filter by the feature; the second holds the weights `W d r`, the bias as a vector,
  and multiplies the feature by the filter. They are one array as soon as `wt r d = W d r` and `b2 0 d = b d`: the sums
  agree term by term and the product of two extended reals commutes. No entry needs to be finite for that.
-/
import Idealize.ShloMosaic.PureOps.Ideal
import Idealize.ShloMosaic.Lib.ValueIdx

noncomputable section

namespace Cert.Messages

open Idealize.ShloMosaic Idealize.ShloMosaic.ValueIdx

/-- The messages with the weights laid out `[r, d]` and the bias a row `[1, d]`: filter times feature. -/
def byRows (eb : (⟨2, ![800000, 128]⟩ : Shape).Idx → EReal) (xg : (⟨2, ![800000, 64]⟩ : Shape).Idx → EReal)
    (wt : (⟨2, ![128, 64]⟩ : Shape).Idx → EReal) (b2 : (⟨2, ![1, 64]⟩ : Shape).Idx → EReal) :
    (⟨2, ![800000, 64]⟩ : Shape).Idx → EReal :=
  fun i => ((∑ k : Fin 128, eb (ix2 (i 0) k) * wt (ix2 k (i 1))) + b2 (ix2 (0 : Fin 1) (i 1))) * xg i

/-- The first spelling read at edge `e` and channel `q`. -/
theorem byRows_apply (eb : (⟨2, ![800000, 128]⟩ : Shape).Idx → EReal) (xg : (⟨2, ![800000, 64]⟩ : Shape).Idx → EReal)
    (wt : (⟨2, ![128, 64]⟩ : Shape).Idx → EReal) (b2 : (⟨2, ![1, 64]⟩ : Shape).Idx → EReal) (e : Fin 800000) (q : Fin 64) :
    byRows eb xg wt b2 (ix2 e q)
      = ((∑ k : Fin 128, eb (ix2 e k) * wt (ix2 k q)) + b2 (ix2 (0 : Fin 1) q)) * xg (ix2 e q) := rfl

/-- The messages with the weights laid out `[d, r]` and the bias a vector `[d]`: feature times filter. -/
def byChannels (eb : (⟨2, ![800000, 128]⟩ : Shape).Idx → EReal) (xg : (⟨2, ![800000, 64]⟩ : Shape).Idx → EReal)
    (W : (⟨2, ![64, 128]⟩ : Shape).Idx → EReal) (b : (⟨1, ![64]⟩ : Shape).Idx → EReal) :
    (⟨2, ![800000, 64]⟩ : Shape).Idx → EReal :=
  fun i => xg i * ((∑ k : Fin 128, eb (ix2 (i 0) k) * W (ix2 (i 1) k)) + b (ix1 (i 1)))

/-- The two spellings are one array when the first's weights are the second's transposed and its bias row is the
    second's bias vector. -/
theorem byRows_eq_byChannels (eb : (⟨2, ![800000, 128]⟩ : Shape).Idx → EReal) (xg : (⟨2, ![800000, 64]⟩ : Shape).Idx → EReal)
    (wt : (⟨2, ![128, 64]⟩ : Shape).Idx → EReal) (b2 : (⟨2, ![1, 64]⟩ : Shape).Idx → EReal)
    (W : (⟨2, ![64, 128]⟩ : Shape).Idx → EReal) (b : (⟨1, ![64]⟩ : Shape).Idx → EReal)
    (hw : ∀ (k : Fin 128) (d : Fin 64), wt (ix2 k d) = W (ix2 d k)) (hb : ∀ d : Fin 64, b2 (ix2 (0 : Fin 1) d) = b (ix1 d)) :
    byRows eb xg wt b2 = byChannels eb xg W b := by
  funext i
  unfold byRows byChannels
  rw [mul_comm, hb (i 1)]
  refine congrArg (fun s => xg i * (s + b (ix1 (i 1)))) ?_
  exact Finset.sum_congr rfl fun k _ => by rw [hw k (i 1)]

end Cert.Messages

end
-- ==== Proof.Region.lean ====
/-
  The array the tiled pass leaves: all 800000 edges' messages.

  The pass walks 100 tiles of 8000 edges. At tile `t` it reads rows `8000 t … 8000 t + 7999` of the basis values and of
  the gathered features, the whole transposed weights and the whole bias row, and writes rows `8000 t … 8000 t + 7999`
  of the result. Position `p` of tile `t` is therefore edge `8000 t + p`, and what the tile writes back is the block of
  ONE array — the messages `Cert.Messages.byRows` of the four arrays as the pass finds them — read through the tile's
  rows. Every edge `e` lies in tile `e / 8000`, so the tiles cover the result and it ends holding that array.
-/
import proofs.«133160_j5042291605794_1_alg».proof.Proof.Gen.KernelIdeal.Frame
import proofs.«133160_j5042291605794_1_alg».proof.Proof.Tile
import proofs.«133160_j5042291605794_1_alg».proof.Proof.Messages
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block of its array each operand's window holds at tile `t`: the basis values, the features and the result move
    down their rows with the tile; the weights and the bias stay on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The edge at position `p` of tile `t`. -/
def edgeOf (t : Fin cfg0.N) (p : Fin 8000) : Fin 800000 :=
  ⟨t.val * 8000 + p.val, by have hN : cfg0.N = 100 := N_0; have := t.isLt; have := p.isLt; omega⟩

theorem edgeOf_val (t : Fin cfg0.N) (p : Fin 8000) : (edgeOf t p).val = t.val * 8000 + p.val := rfl

/-! ## The tile's blocks, read off the arrays as the pass finds them -/

/-- The tile's basis values are the edges' rows of the basis array. -/
theorem basis_block (c : Dev nD) (t : Fin cfg0.N) (p : Fin 8000) (k : Fin 128) :
    (iblk m c 0 t : Vec Ideal S8000x128 .f32) (ix2 p k) = (V m c main_arg1 : S800000x128.Idx → EReal) (ix2 (edgeOf t p) k) := by
  obtain ⟨h0, h1, -⟩ := block_indices t
  unfold iblk
  rw [View.read_apply]
  show (V m c main_arg1 : S800000x128.Idx → EReal) _ = _
  refine congrArg (V m c main_arg1 : S800000x128.Idx → EReal) (funext fun a => Fin.ext ?_)
  match a with
  | ⟨0, _⟩ => show win0_0.index t (0 : Fin 2) * 8000 + 1 * p.val = t.val * 8000 + p.val; rw [h0]; omega
  | ⟨1, _⟩ => show win0_0.index t (1 : Fin 2) * 128 + 1 * k.val = k.val; rw [h1]; omega

/-- The tile's gathered features are the edges' rows of the gathered array. -/
theorem features_block (c : Dev nD) (t : Fin cfg0.N) (p : Fin 8000) (q : Fin 64) :
    (iblk m c 1 t : Vec Ideal S8000x64 .f32) (ix2 p q) = (V m c main_v6 : S800000x64.Idx → EReal) (ix2 (edgeOf t p) q) := by
  obtain ⟨-, -, h0, h1, -⟩ := block_indices t
  unfold iblk
  rw [View.read_apply]
  show (V m c main_v6 : S800000x64.Idx → EReal) _ = _
  refine congrArg (V m c main_v6 : S800000x64.Idx → EReal) (funext fun a => Fin.ext ?_)
  match a with
  | ⟨0, _⟩ => show win0_1.index t (0 : Fin 2) * 8000 + 1 * p.val = t.val * 8000 + p.val; rw [h0]; omega
  | ⟨1, _⟩ => show win0_1.index t (1 : Fin 2) * 64 + 1 * q.val = q.val; rw [h1]; omega

/-- Every tile sees the whole transposed weights. -/
theorem weights_block (c : Dev nD) (t : Fin cfg0.N) (k : Fin 128) (q : Fin 64) :
    (iblk m c 2 t : Vec Ideal S128x64 .bf16) (ix2 k q) = (V m c main_v8 : S128x64.Idx → EReal) (ix2 k q) := by
  obtain ⟨-, -, -, -, h0, h1, -⟩ := block_indices t
  unfold iblk
  rw [View.read_apply]
  show (V m c main_v8 : S128x64.Idx → EReal) _ = _
  refine congrArg (V m c main_v8 : S128x64.Idx → EReal) (funext fun a => Fin.ext ?_)
  match a with
  | ⟨0, _⟩ => show win0_2.index t (0 : Fin 2) * 128 + 1 * k.val = k.val; rw [h0]; omega
  | ⟨1, _⟩ => show win0_2.index t (1 : Fin 2) * 64 + 1 * q.val = q.val; rw [h1]; omega

/-- Every tile sees the whole bias row. -/
theorem bias_block (c : Dev nD) (t : Fin cfg0.N) (q : Fin 64) :
    (iblk m c 3 t : Vec Ideal S1x64 .f32) (ix2 (0 : Fin 1) q) = (V m c main_v9 : S1x64.Idx → EReal) (ix2 (0 : Fin 1) q) := by
  obtain ⟨-, -, -, -, -, -, h0, h1, -⟩ := block_indices t
  unfold iblk
  rw [View.read_apply]
  show (V m c main_v9 : S1x64.Idx → EReal) _ = _
  refine congrArg (V m c main_v9 : S1x64.Idx → EReal) (funext fun a => Fin.ext ?_)
  match a with
  | ⟨0, _⟩ => show win0_3.index t (0 : Fin 2) * 1 + 1 * 0 = 0; rw [h0]
  | ⟨1, _⟩ => show win0_3.index t (1 : Fin 2) * 64 + 1 * q.val = q.val; rw [h1]; omega

/-- Position `(p, q)` of the result's block at tile `t` is entry `(8000 t + p, q)` of the result. -/
theorem result_index (t : Fin cfg0.N) (p : Fin 8000) (q : Fin 64) :
    ((cfg0.win 4).blk t).view.emb (ix2 p q) = (ix2 (edgeOf t p) q : S800000x64.Idx) := by
  obtain ⟨-, -, -, -, -, -, -, -, h0, h1⟩ := block_indices t
  funext a; apply Fin.ext
  match a with
  | ⟨0, _⟩ => show win0_4.index t (0 : Fin 2) * 8000 + 1 * p.val = t.val * 8000 + p.val; rw [h0]; omega
  | ⟨1, _⟩ => show win0_4.index t (1 : Fin 2) * 64 + 1 * q.val = q.val; rw [h1]; omega

/-! ## What a tile writes back -/

/-- Tile `t` writes back its rows of the messages of the four arrays as the pass finds them. -/
theorem flushed_eq (c : Dev nD) (t : Fin cfg0.N) :
    (dats m 0 c).flushed 4 t = ((cfg0.win 4).blk t).view.read (Elt Ideal)
      (Cert.Messages.byRows (V m c main_arg1) (V m c main_v6) (V m c main_v8) (V m c main_v9)) := by
  show (cfg0.win 4).cut (grid0.coords t) ((dats m 0 c).after 4 t) = _
  rw [after0_4]
  unfold out0_4
  rw [View.canon_unit_zero zero_offsets]
  simp only [View.ld_unit_zero (S := S8000x128) zero_offsets, View.ld_unit_zero (S := S128x64) zero_offsets,
    View.ld_unit_zero (S := S1x64) zero_offsets, View.ld_unit_zero (S := S8000x64) zero_offsets]
  funext j
  obtain ⟨p, q, rfl⟩ : ∃ (p : Fin 8000) (q : Fin 64), j = ix2 p q := ⟨j 0, j 1, eq_ix2 j⟩
  rw [View.read_apply, result_index, Cert.Messages.byRows_apply]
  refine (Cert.KernelIdeal.Tile.payload_apply (iblk m c 0 t) (iblk m c 2 t) (iblk m c 3 t) (iblk m c 1 t) p q).trans ?_
  rw [features_block m c t p q, bias_block m c t q]
  refine congrArg (fun s => (s + (V m c main_v9 : S1x64.Idx → EReal) (ix2 (0 : Fin 1) q)) * (V m c main_v6 : S800000x64.Idx → EReal) (ix2 (edgeOf t p) q)) ?_
  exact Finset.sum_congr rfl fun k _ => by rw [basis_block m c t p k, weights_block m c t k q]

/-! ## The tiles cover the result -/

/-- An entry of the result is in tile `t`'s block iff its row is one of the tile's 8000 rows. -/
theorem mem_block (t : Fin cfg0.N) (i : S800000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v10).slice (win0_4.rect t)).set ↔ _
  rw [View.set_slice_whole, Rect.mem_set_unit]
  exact Iff.rfl

/-- Edge `e` is written by tile `e / 8000`. -/
theorem covered (i : S800000x64.Idx) :
    ∃ t : Fin cfg0.N, (cfg0.win 4).flush t = true ∧ i ∈ ((cfg0.win 4).blk t).view.set := by
  have hi0 : (i 0).val < 800000 := (i 0).isLt
  have hi1 : (i 1).val < 64 := (i 1).isLt
  obtain ⟨t, ht⟩ : ∃ t : Fin cfg0.N, t.val = (i 0).val / 8000 :=
    ⟨⟨(i 0).val / 8000, by have hN : cfg0.N = 100 := N_0; omega⟩, rfl⟩
  obtain ⟨-, -, -, -, -, -, -, -, h0, h1⟩ := block_indices t
  refine ⟨t, flush0_4 t, ?_⟩
  rw [mem_block]
  intro a
  match a with
  | ⟨0, _⟩ =>
    show win0_4.index t (0 : Fin 2) * 8000 ≤ (i 0).val ∧ (i 0).val < win0_4.index t (0 : Fin 2) * 8000 + 8000
    rw [h0, ht]; omega
  | ⟨1, _⟩ =>
    show win0_4.index t (1 : Fin 2) * 64 ≤ (i 1).val ∧ (i 1).val < win0_4.index t (1 : Fin 2) * 64 + 64
    rw [h1]; omega

/-- THE RESULT OF THE PASS: the messages of the basis values, the gathered features, the transposed weights and the bias
    row as the pass finds them. -/
theorem final (c : Dev nD) :
    (dats m 0 c).arrAt 4 cfg0.N
      = Cert.Messages.byRows (V m c main_arg1) (V m c main_v6) (V m c main_v8) (V m c main_v9) :=
  (dats m 0 c).arrAt_eq_of_cover 4 _ (fun t _ => flushed_eq m c t) covered

end Cert.KernelIdeal.Region

end
-- ==== Proof.Whole.lean ====
/-
  The whole tiled program: what it returns, as one term of its six inputs.

  Before the tiled pass the program gathers each edge's source row of `x` (a negative source index wrapped round by
  the number of nodes), transposes the weights and narrows them to a shorter float format — the identity on the
  extended reals —, and reshapes the bias vector to a one-row matrix. So the pass finds: the basis values as given; the
  gathered features; the weights with `wt k q = W q k`; the bias row with `b2 0 q = b q`. Its result (the messages in
  the row spelling, `Cert.KernelIdeal.Region.final`) is therefore the messages in the channel spelling
  (`Cert.Messages.byRows_eq_byChannels`). After the pass the program adds every edge's message into its destination
  node's row of a zero array; that scatter-add is kept as it is printed, applied to the messages.
-/
import proofs.«133160_j5042291605794_1_alg».proof.Proof.Gen.KernelIdeal.Frame
import proofs.«133160_j5042291605794_1_alg».proof.Proof.Region
import proofs.«133160_j5042291605794_1_alg».proof.Proof.Messages
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- Each edge's source row of `x`: a negative source index is wrapped round by the 50000 nodes first. -/
def gathered (c : Dev nD) : S800000x64.Idx → EReal :=
  Host.gather gather_S50000x64_S800000x1_S800000x64_1_0_n_n_0_1_164 (m ((c : Thread nD τ).loc main_arg0)) (broadcastInDim S800000x1 ![0] bcast_S800000_S800000x1_0 (select (cmpi .slt (m ((c : Thread nD τ).loc main_arg2)) (broadcastInDim S800000 ![] bcast_S_S800000 (constantI S_ 32 0#32))) (addi (m ((c : Thread nD τ).loc main_arg2)) (broadcastInDim S800000 ![] bcast_S_S800000 (constantI S_ 32 50000#32))) (m ((c : Thread nD τ).loc main_arg2))))

/-- What the program returns: every edge's message added into its destination node's row of a zero array. -/
def result (c : Dev nD) : S50000x64.Idx → EReal :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (m ((c : Thread nD τ).loc main_arg3))) (Cert.Messages.byChannels (m ((c : Thread nD τ).loc main_arg1)) (gathered m c) (m ((c : Thread nD τ).loc main_arg4)) (m ((c : Thread nD τ).loc main_arg5)))

/-! ## The operands as the pass finds them -/

/-- The pass finds the gathered features. -/
theorem gathered_entering (c : Dev nD) : (V m c main_v6 : S800000x64.Idx → EReal) = gathered m c := by
  show StableHlo.after hostOps0 (fun b => m (c, b)) (Proc.devRef .tc main_v6) = _
  after_results <;> rfl

/-- The pass finds the weights transposed: narrowing the float format changes no extended real. -/
theorem weights_entering (c : Dev nD) (k : Fin 128) (q : Fin 64) :
    (V m c main_v8 : S128x64.Idx → EReal) (ix2 k q) = ((m ((c : Thread nD τ).loc main_arg4)) : S64x128.Idx → EReal) (ix2 q k) := by
  have e : (V m c main_v8 : S128x64.Idx → EReal)
      = (truncf (F := Ideal) .bf16 (transpose S128x64 [1, 0] (m ((c : Thread nD τ).loc main_arg4)) transposes_S64x128_S128x64_1_0) bitsLt_bf16_f32 : S128x64.Idx → EReal) := by
    show StableHlo.after hostOps0 (fun b => m (c, b)) (Proc.devRef .tc main_v8) = _
    after_results <;> rfl
  rw [e]
  exact transpose_ix2_apply (m ((c : Thread nD τ).loc main_arg4)) transposes_S64x128_S128x64_1_0 k q

/-- The pass finds the bias as a one-row matrix. -/
theorem bias_entering (c : Dev nD) (q : Fin 64) :
    (V m c main_v9 : S1x64.Idx → EReal) (ix2 (0 : Fin 1) q) = ((m ((c : Thread nD τ).loc main_arg5)) : S64.Idx → EReal) (ix1 q) := by
  have e : (V m c main_v9 : S1x64.Idx → EReal) = shapeCast S1x64 (m ((c : Thread nD τ).loc main_arg5)) shapeCasts_S64_S1x64 := by
    show StableHlo.after hostOps0 (fun b => m (c, b)) (Proc.devRef .tc main_v9) = _
    after_results <;> rfl
  rw [e]
  exact shapeCast_a_1a_apply (m ((c : Thread nD τ).loc main_arg5)) shapeCasts_S64_S1x64 (0 : Fin 1) q

/-- The pass's result, in the inputs: the messages of the basis values, the gathered features, the weights and the bias. -/
theorem messages_of_pass (c : Dev nD) :
    (dats m 0 c).arrAt 4 cfg0.N
      = Cert.Messages.byChannels (m ((c : Thread nD τ).loc main_arg1)) (gathered m c) (m ((c : Thread nD τ).loc main_arg4)) (m ((c : Thread nD τ).loc main_arg5)) := by
  rw [Cert.KernelIdeal.Region.final m c, gathered_entering m c, V_main_arg1 m c]
  exact Cert.Messages.byRows_eq_byChannels _ _ _ _ _ _ (weights_entering m c) (bias_entering m c)

/-! ## The scatter-add after the pass -/

/-- The lines after the pass leave the program's result at `result`: they read the destination indices as given and the
    pass's array at the messages. -/
theorem tail_result (c : Dev nD) :
    Pipeline.afterTail₀ cfgs (dats m) 0 (V0 m) [hostOps1] c main_v13 = result m c := by
  have hmsg : Pipeline.withArrays (cfgs 0).spec c (V0 m c) (fun w => (dats m 0 c).arrAt w (cfgs 0).N) (Proc.devRef .tc main_v10)
      = Cert.Messages.byChannels (m ((c : Thread nD τ).loc main_arg1)) (gathered m c) (m ((c : Thread nD τ).loc main_arg4)) (m ((c : Thread nD τ).loc main_arg5)) :=
    (Pipeline.withArrays_arr spec0 launch0.win.arr_inj c _ _ 4).trans (messages_of_pass m c)
  have hdst : Pipeline.withArrays (cfgs 0).spec c (V0 m c) (fun w => (dats m 0 c).arrAt w (cfgs 0).N) (Proc.devRef .tc main_arg3)
      = (m ((c : Thread nD τ).loc main_arg3)) :=
    (Pipeline.withArrays_of_ne spec0 c (V0 m c) _ main_arg3 (by exact (by decide : ∀ w, Pipeline.arrRef spec0 w ≠ main_arg3))).trans (V_main_arg3 m c)
  unfold Pipeline.afterTail₀
  show StableHlo.after hostOps1 _ (Proc.devRef .tc main_v13) = _
  after_results
  rw [hmsg, hdst]
  rfl

/-! ## The run -/

/-- Every weakly fair execution of the program terminates with its result buffer at `result` and its six inputs
    unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans (tail_result m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.RefMessages.lean ====
/-
  The reference's messages. The reference multiplies each edge's gathered feature by the filter it gets from ONE product
  of the whole basis array with the weights, contracted over the 128 basis values, plus the bias vector spread over the
  edges. Read at edge `e` and channel `d` that is `xg e d · (Σ_k eb e k · W d k + b d)`: the messages in the channel
  spelling, `Cert.Messages.byChannels`.
-/
import proofs.«133160_j5042291605794_1_alg».proof.Proof.Gen.ReferenceIdeal.Read
import proofs.«133160_j5042291605794_1_alg».proof.Proof.Messages
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The reference's product of the gathered features with its filter is the messages, index by index. -/
theorem messages_eq (xg : FVec Ideal S800000x64 .f32) (eb : FVec Ideal S800000x128 .f32) (W : FVec Ideal S64x128 .f32)
    (b : FVec Ideal S64 .f32) :
    mulf xg (addf (Host.dotGeneral dot_S800000x128_S64x128_S800000x64_1_1_0_0_n_n none eb W)
        (broadcastInDim S800000x64 ![0, 1] bcast_S1x64_S800000x64_0_1 (broadcastInDim S1x64 ![1] bcast_S64_S1x64_1 b)))
      = Cert.Messages.byChannels eb xg W b := by
  funext i
  show xg i * (val_main_v0 (F := Ideal) eb W i + val_main_v2 (F := Ideal) b i) = _
  rw [val_main_v0_apply, val_main_v2_apply, val_main_v1_apply]
  have el : ∀ k : Fin 128, lidx_main_v0 i k = ix2 (i 0) k := fun k => funext fun a => by
    match a with
    | ⟨0, _⟩ => rfl
    | ⟨1, _⟩ => rfl
  have er : ∀ k : Fin 128, ridx_main_v0 i k = ix2 (i 1) k := fun k => funext fun a => by
    match a with
    | ⟨0, _⟩ => rfl
    | ⟨1, _⟩ => rfl
  have eb' : idx_main_v1 (idx_main_v2 i) = ix1 (i 1) := funext fun a => by
    match a with
    | ⟨0, _⟩ => rfl
  unfold Cert.Messages.byChannels
  simp only [el, er, eb']
  rfl

end Cert.ReferenceIdeal.RefValue

end
-- ==== Proof.lean ====
/-
  A radial-filter message-passing layer: the tiled program and the plain one return the same array.

  Both programs compute, for a graph of 50000 nodes and 800000 edges,
      h n d = Σ over the edges e with destination n of  x (src e) d · (Σ_r basis e r · W d r + b d).
  The gather of the source rows and the scatter-add into the destination rows are the same two operations in both
  programs, applied to the same index arrays. What differs is the array of per-edge messages between them: the tiled
  program computes it 8000 edges at a time, from the weights transposed and narrowed to a shorter float format and the
  bias as a one-row matrix, as filter times feature; the plain program computes it in one product over all edges, as
  feature times filter. On the extended reals the narrowing is the identity, the product into a zero accumulator is the
  plain sum over the 128 basis values, and the product of two numbers commutes, so the two message arrays are equal
  entry by entry (Proof/Messages.lean) — for any inputs, finite or not — and the scatter-add of equal arrays is equal.

  The modules: Proof/Messages.lean (the message array, in its two spellings, and their equality), Proof/Tile.lean (what
  the tiled body stores, at an entry), Proof/Region.lean (the array the 100 tiles leave), Proof/Whole.lean (the tiled
  program's run: its operands as the pass finds them, the scatter-add after it), Proof/RefMessages.lean (the plain
  program's messages). The ideal pass rewrote nothing, so the idealization conjunct is trivial; the three programs' runs
  terminate with their inputs unchanged by the generated frames and the generated run of the plain program.
-/
import proofs.«133160_j5042291605794_1_alg».proof.Defs
import proofs.«133160_j5042291605794_1_alg».proof.Proof.Gen.Kernel
import proofs.«133160_j5042291605794_1_alg».proof.Proof.Gen.Kernel.Skeleton
import proofs.«133160_j5042291605794_1_alg».proof.Proof.Gen.Kernel.Launch
import proofs.«133160_j5042291605794_1_alg».proof.Proof.Gen.Kernel.Points
import proofs.«133160_j5042291605794_1_alg».proof.Proof.Gen.Kernel.Frame
import proofs.«133160_j5042291605794_1_alg».proof.Proof.Gen.KernelIdeal
import proofs.«133160_j5042291605794_1_alg».proof.Proof.Gen.KernelIdeal.Skeleton
import proofs.«133160_j5042291605794_1_alg».proof.Proof.Gen.KernelIdeal.Launch
import proofs.«133160_j5042291605794_1_alg».proof.Proof.Gen.KernelIdeal.Points
import proofs.«133160_j5042291605794_1_alg».proof.Proof.Gen.KernelIdeal.Frame
import proofs.«133160_j5042291605794_1_alg».proof.Proof.Gen.ReferenceIdeal
import proofs.«133160_j5042291605794_1_alg».proof.Proof.Gen.Pre_finite_inputs
import proofs.«133160_j5042291605794_1_alg».proof.Proof.Gen.ReferenceIdeal.Run
import proofs.«133160_j5042291605794_1_alg».proof.Proof.Gen.ReferenceIdeal.Read
import proofs.«133160_j5042291605794_1_alg».proof.Proof.Whole
import proofs.«133160_j5042291605794_1_alg».proof.Proof.RefMessages
import Idealize.ShloMosaic.Adequacy
import Idealize.ShloMosaic.Init

noncomputable section

namespace Cert.Proof

open Idealize.ShloMosaic Idealize.SL.Sem

/-- The tiled program as printed runs to the end with its inputs unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the plain program: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the tiled program was read on the extended reals. -/
theorem preserves : Cert.preserves_Kernel_KernelIdeal := trivial

/-- From memories that agree on the six inputs, both programs end with the scatter-add of one message array: the
    plain program's product of gathered features and filter is that array (`RefValue.messages_eq`), and its gather and
    scatter-add are the tiled program's, on the same index arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5, Cert.ReferenceIdeal.RefValue.messages_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
